-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S64x18 : S_.BroadcastsInDim S64x18 (![] : Fin 0 → Fin S64x18.rank)
  reducesTo_S64x18_S_d0_1 : S64x18.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg4 : FVec F S64x18 .f32) (main_arg5 : FVec F S64x64 .f32) (main_arg6 : FVec F S64x64 .f32) (main_arg7 : FVec F S3x64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x18 .f32 := Host.absf main_arg4
  let main_cst_6 : FVec F S_ .f32 := constant S_ .f32 0x7F800000#32
  let main_v20 : FVec F S64x18 .f32 := broadcastInDim S64x18 ![] bcast_S_S64x18 main_cst_6
  let main_v21 : IVec S64x18 1 := cmpf .olt main_v19 main_v20
  let main_c_7 : IVec S_ 1 := constantI S_ 1 1#1
  let main_v22 : IVec S_ 1 := (fun x v => Host.reduce IntOp.andi x v reducesTo_S64x18_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S1048576x6 .f32) (main_arg1 : FVec F S64x3 .f32) (main_arg2 : FVec F S64x64 .f32) (main_arg3 : FVec F S16x64 .f32) (main_arg4 : FVec F S64x18 .f32) (main_arg5 : FVec F S64x64 .f32) (main_arg6 : FVec F S64x64 .f32) (main_arg7 : FVec F S3x64 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_v13 main_v16
-- ==== Kernel.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S64x15 : Shape := ⟨2, ![64, 15]⟩
abbrev S15x64 : Shape := ⟨2, ![15, 64]⟩
abbrev S1x64 : Shape := ⟨2, ![1, 64]⟩
abbrev S6x1048576 : Shape := ⟨2, ![6, 1048576]⟩
abbrev S4x1048576 : Shape := ⟨2, ![4, 1048576]⟩
abbrev S6x8192 : Shape := ⟨2, ![6, 8192]⟩
abbrev S4x8192 : Shape := ⟨2, ![4, 8192]⟩
abbrev S3x8192 : Shape := ⟨2, ![3, 8192]⟩
abbrev S64x8192 : Shape := ⟨2, ![64, 8192]⟩
abbrev S1x8192 : Shape := ⟨2, ![1, 8192]⟩
abbrev S1048576x4 : Shape := ⟨2, ![1048576, 4]⟩

abbrev nBuf : Space → Nat
  | .hbm => 24
  | .vmem => 12
  | .smem => 0
  | _ => 0

abbrev bufTy : (tb : Table) → Fin (tcTables nBuf tb) → BufTy
  | .hbm, ⟨0, _⟩ => ⟨S1048576x6, .f32⟩
  | .hbm, ⟨1, _⟩ => ⟨S64x3, .f32⟩
  | .hbm, ⟨2, _⟩ => ⟨S64x64, .f32⟩
  | .hbm, ⟨3, _⟩ => ⟨S16x64, .f32⟩
  | .hbm, ⟨4, _⟩ => ⟨S64x18, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S64x15, .f32⟩
  | .hbm, ⟨9, _⟩ => ⟨S15x64, .f32⟩
  | .hbm, ⟨10, _⟩ => ⟨S64x64, .f32⟩
  | .hbm, ⟨11, _⟩ => ⟨S64x3, .f32⟩
  | .hbm, ⟨12, _⟩ => ⟨S1x64, .f32⟩
  | .hbm, ⟨13, _⟩ => ⟨S64x3, .bf16⟩
  | .hbm, ⟨14, _⟩ => ⟨S64x64, .bf16⟩
  | .hbm, ⟨15, _⟩ => ⟨S64x64, .bf16⟩
  | .hbm, ⟨16, _⟩ => ⟨S64x3, .bf16⟩
  | .hbm, ⟨17, _⟩ => ⟨S1x64, .bf16⟩
  | .hbm, ⟨18, _⟩ => ⟨S64x64, .bf16⟩
  | .hbm, ⟨19, _⟩ => ⟨S64x64, .bf16⟩
  | .hbm, ⟨20, _⟩ => ⟨S3x64, .bf16⟩
  | .hbm, ⟨21, _⟩ => ⟨S6x1048576, .f32⟩
  | .hbm, ⟨22, _⟩ => ⟨S4x1048576, .f32⟩
  | .hbm, ⟨23, _⟩ => ⟨S1048576x4, .f32⟩
  | .local _ .vmem, ⟨0, _⟩ => ⟨S6x8192, .f32⟩
  | .local _ .vmem, ⟨1, _⟩ => ⟨S6x8192, .f32⟩
  | .local _ .vmem, ⟨2, _⟩ => ⟨S64x3, .bf16⟩
  | .local _ .vmem, ⟨3, _⟩ => ⟨S64x64, .bf16⟩
  | .local _ .vmem, ⟨4, _⟩ => ⟨S64x64, .bf16⟩
  | .local _ .vmem, ⟨5, _⟩ => ⟨S64x3, .bf16⟩
  | .local _ .vmem, ⟨6, _⟩ => ⟨S1x64, .bf16⟩
  | .local _ .vmem, ⟨7, _⟩ => ⟨S64x64, .bf16⟩
  | .local _ .vmem, ⟨8, _⟩ => ⟨S64x64, .bf16⟩
  | .local _ .vmem, ⟨9, _⟩ => ⟨S3x64, .bf16⟩
  | .local _ .vmem, ⟨10, _⟩ => ⟨S4x8192, .f32⟩
  | .local _ .vmem, ⟨11, _⟩ => ⟨S4x8192, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S64x18_S64x15_0_3 : S64x18.Slices ![0, 3] S64x15
  slices_S16x64_S15x64_1_0 : S16x64.Slices ![1, 0] S15x64
  slices_S64x18_S64x3_0_0 : S64x18.Slices ![0, 0] S64x3
  slices_S16x64_S1x64_0_0 : S16x64.Slices ![0, 0] S1x64
  bitsLt_bf16_f32 : FTy.bits .bf16 < FTy.bits .f32
  transposes_S1048576x6_S6x1048576_1_0 : S1048576x6.Transposes [1, 0] S6x1048576
  inb_S6x8192_S6x8192_0_0 : ∀ a, (![0, 0] : Fin 2 → Nat) a + S6x8192.size a ≤ S6x8192.size a
  h_S6x8192 : 0 < S6x8192.numel
  shapeCasts_S6x8192_S6x8192 : S6x8192.ShapeCasts S6x8192
  slices_S6x8192_o0_0_S3x8192 : S6x8192.Slices ![0, 0] S3x8192
  slices_S6x8192_o3_0_S3x8192 : S6x8192.Slices ![3, 0] S3x8192
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  concatenates_S3x8192_S1x8192_S4x8192_d0 : Shape.Concatenates [S3x8192, S1x8192] S4x8192 0
  inb_S4x8192_S4x8192_0_0 : ∀ a, (![0, 0] : Fin 2 → Nat) a + S4x8192.size a ≤ S4x8192.size a
  h_S4x8192 : 0 < S4x8192.numel
  transposes_S4x1048576_S1048576x4_1_0 : S4x1048576.Transposes [1, 0] S1048576x4
  dot_S64x15_S15x64_S64x64_1_0_0_1_n_n_wf : DotDims.WF S64x15 S15x64 S64x64 [1] [0] [0] [1] [] []
  dot_S64x3_S3x8192_S64x8192_1_0_0_1_n_n_wf : DotDims.WF S64x3 S3x8192 S64x8192 [1] [0] [0] [1] [] []
  dot_S64x64_S64x8192_S64x8192_1_0_0_1_n_n_wf : DotDims.WF S64x64 S64x8192 S64x8192 [1] [0] [0] [1] [] []
  dot_S1x64_S64x8192_S1x8192_1_0_0_1_n_n_wf : DotDims.WF S1x64 S64x8192 S1x8192 [1] [0] [0] [1] [] []
  dot_S3x64_S64x8192_S3x8192_1_0_0_1_n_n_wf : DotDims.WF S3x64 S64x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x8192.size a ≤ S6x1048576.size a
  hwx0_0 : ∀ i : grid0.Coords, EltTy.bits .f32 = 32 ∨ (Rect.block (s := S6x1048576) S6x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .bf16 = 32 ∨ (Rect.block (s := S64x3) S64x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x3.size a ≤ S64x3.size a
  hwx0_4 : ∀ i : grid0.Coords, EltTy.bits .bf16 = 32 ∨ (Rect.block (s := S64x3) S64x3.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .bf16 = 32 ∨ (Rect.block (s := S1x64) S1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .bf16 = 32 ∨ (Rect.block (s := S3x64) S3x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x8192.size a ≤ S4x1048576.size a
  hwx0_9 : ∀ i : grid0.Coords, EltTy.bits .f32 = 32 ∨ (Rect.block (s := S4x1048576) S4x8192.size (cc0_transform_9 i) (hinb0_9 i)).WholeWords (EltTy.packing .f32)

variable [Facts₀]

def dot_S64x15_S15x64_S64x64_1_0_0_1_n_n : DotDims S64x15 S15x64 S64x64 where
  lhsContracting := [1]
  rhsContracting := [0]
  lhsNonContracting := [0]
  rhsNonContracting := [1]
  lhsBatch := []
  rhsBatch := []
  wf := dot_S64x15_S15x64_S64x64_1_0_0_1_n_n_wf
def dot_S64x3_S3x8192_S64x8192_1_0_0_1_n_n : DotDims S64x3 S3x8192 S64x8192 where
  lhsContracting := [1]
  rhsContracting := [0]
  lhsNonContracting := [0]
  rhsNonContracting := [1]
  lhsBatch := []
  rhsBatch := []
  wf := dot_S64x3_S3x8192_S64x8192_1_0_0_1_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf
def dot_S3x64_S64x8192_S3x8192_1_0_0_1_n_n : DotDims S3x64 S64x8192 S3x8192 where
  lhsContracting := [1]
  rhsContracting := [0]
  lhsNonContracting := [0]
  rhsNonContracting := [1]
  lhsBatch := []
  rhsBatch := []
  wf := dot_S3x64_S64x8192_S3x8192_1_0_0_1_n_n_wf

abbrev win0_0 : Pipeline.Window sig grid0 :=
  Pipeline.Window.ofSpec (Memref.whole main_v13) S6x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S4x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S1048576x3 : Shape := ⟨2, ![1048576, 3]⟩
abbrev S1048576x64 : Shape := ⟨2, ![1048576, 64]⟩
abbrev S_ : Shape := ⟨0, ![]⟩
abbrev S64x16 : Shape := ⟨2, ![64, 16]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x18 : Shape := ⟨2, ![1048576, 18]⟩
abbrev S18x64 : Shape := ⟨2, ![18, 64]⟩
abbrev S1048576x4 : Shape := ⟨2, ![1048576, 4]⟩

abbrev nBuf : Space → Nat
  | .hbm => 45
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S64x3, .f32⟩
  | .hbm, ⟨2, _⟩ => ⟨S64x64, .f32⟩
  | .hbm, ⟨3, _⟩ => ⟨S16x64, .f32⟩
  | .hbm, ⟨4, _⟩ => ⟨S64x18, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S1048576x3, .f32⟩
  | .hbm, ⟨9, _⟩ => ⟨S1048576x3, .f32⟩
  | .hbm, ⟨10, _⟩ => ⟨S3x64, .f32⟩
  | .hbm, ⟨11, _⟩ => ⟨S1048576x64, .f32⟩
  | .hbm, ⟨12, _⟩ => ⟨S_, .f32⟩
  | .hbm, ⟨13, _⟩ => ⟨S1048576x64, .f32⟩
  | .hbm, ⟨14, _⟩ => ⟨S1048576x64, .f32⟩
  | .hbm, ⟨15, _⟩ => ⟨S64x64, .f32⟩
  | .hbm, ⟨16, _⟩ => ⟨S1048576x64, .f32⟩
  | .hbm, ⟨17, _⟩ => ⟨S_, .f32⟩
  | .hbm, ⟨18, _⟩ => ⟨S1048576x64, .f32⟩
  | .hbm, ⟨19, _⟩ => ⟨S1048576x64, .f32⟩
  | .hbm, ⟨20, _⟩ => ⟨S64x16, .f32⟩
  | .hbm, ⟨21, _⟩ => ⟨S1048576x16, .f32⟩
  | .hbm, ⟨22, _⟩ => ⟨S1048576x1, .f32⟩
  | .hbm, ⟨23, _⟩ => ⟨S1048576, .f32⟩
  | .hbm, ⟨24, _⟩ => ⟨S1048576x15, .f32⟩
  | .hbm, ⟨25, _⟩ => ⟨S1048576x18, .f32⟩
  | .hbm, ⟨26, _⟩ => ⟨S18x64, .f32⟩
  | .hbm, ⟨27, _⟩ => ⟨S1048576x64, .f32⟩
  | .hbm, ⟨28, _⟩ => ⟨S_, .f32⟩
  | .hbm, ⟨29, _⟩ => ⟨S1048576x64, .f32⟩
  | .hbm, ⟨30, _⟩ => ⟨S1048576x64, .f32⟩
  | .hbm, ⟨31, _⟩ => ⟨S64x64, .f32⟩
  | .hbm, ⟨32, _⟩ => ⟨S1048576x64, .f32⟩
  | .hbm, ⟨33, _⟩ => ⟨S_, .f32⟩
  | .hbm, ⟨34, _⟩ => ⟨S1048576x64, .f32⟩
  | .hbm, ⟨35, _⟩ => ⟨S1048576x64, .f32⟩
  | .hbm, ⟨36, _⟩ => ⟨S64x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S64x3, .f32⟩
  | .hbm, ⟨42, _⟩ => ⟨S1048576x3, .f32⟩
  | .hbm, ⟨43, _⟩ => ⟨S1048576x1, .f32⟩
  | .hbm, ⟨44, _⟩ => ⟨S1048576x4, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_cst : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call3_cst : Ref sig .tc := ⟨.hbm, 33, rfl⟩
abbrev main_call3_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call4_cst : Ref sig .tc := ⟨.hbm, 38, rfl⟩
abbrev main_call4_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  slices_S1048576x6_S1048576x3_0_0 : S1048576x6.Slices ![0, 0] S1048576x3
  slices_S1048576x6_S1048576x3_0_3 : S1048576x6.Slices ![0, 3] S1048576x3
  transposes_S64x3_S3x64_1_0 : S64x3.Transposes [1, 0] S3x64
  bcast_S_S1048576x64 : S_.BroadcastsInDim S1048576x64 (![] : Fin 0 → Fin S1048576x64.rank)
  transposes_S64x64_S64x64_1_0 : S64x64.Transposes [1, 0] S64x64
  transposes_S16x64_S64x16_1_0 : S16x64.Transposes [1, 0] S64x16
  slices_S1048576x16_S1048576x1_0_0 : S1048576x16.Slices ![0, 0] S1048576x1
  shapeCasts_S1048576x1_S1048576 : S1048576x1.ShapeCasts S1048576
  slices_S1048576x16_S1048576x15_0_1 : S1048576x16.Slices ![0, 1] S1048576x15
  concatenates_S1048576x3_S1048576x15_S1048576x18_d1 : Shape.Concatenates [S1048576x3, S1048576x15] S1048576x18 1
  transposes_S64x18_S18x64_1_0 : S64x18.Transposes [1, 0] S18x64
  transposes_S3x64_S64x3_1_0 : S3x64.Transposes [1, 0] S64x3
  bcast_S1048576_S1048576x1_0 : S1048576.BroadcastsInDim S1048576x1 (![0] : Fin 1 → Fin S1048576x1.rank)
  concatenates_S1048576x3_S1048576x1_S1048576x4_d1 : Shape.Concatenates [S1048576x3, S1048576x1] S1048576x4 1
  dot_S1048576x3_S3x64_S1048576x64_1_0_0_1_n_n_wf : DotDims.WF S1048576x3 S3x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x18_S18x64_S1048576x64_1_0_0_1_n_n_wf : DotDims.WF S1048576x18 S18x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x3_S3x64_S1048576x64_1_0_0_1_n_n : DotDims S1048576x3 S3x64 S1048576x64 where
  lhsContracting := [1]
  rhsContracting := [0]
  lhsNonContracting := [0]
  rhsNonContracting := [1]
  lhsBatch := []
  rhsBatch := []
  wf := dot_S1048576x3_S3x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.Mlp.lean ====
/-
  The mathematics of the two programs, for ONE sample.

  Both programs evaluate the same small network on each of the 1048576 rows of the input: a row holds three point
  coordinates and three view coordinates; two dense layers with a rectifier give 64 hidden values; a third dense
  layer gives 16 values, the first of which is the density; the view coordinates followed by the other 15 values
  feed three more rectified dense layers and a last dense layer with three colour outputs. A result row is the three
  colours followed by the density.

  The reference forms the 18 inputs of the first colour layer and multiplies by its 64 x 18 matrix. The kernel never
  forms the 15 features: it multiplies the 64 hidden values by the 64 x 64 product of the last 15 columns of that
  matrix with the last 15 rows of the third layer's matrix, and adds the view coordinates' share. The two agree
  by distributivity and an exchange of two finite sums, which hold on real numbers; so the statement asks for
  every entry to be a real number.
-/
import proofs.«181460_j6957847019903_2_alg».proof.Proof.LibFiniteReals

noncomputable section

open scoped BigOperators

namespace Cert.Mlp

open Cert.FiniteReals

/-- A dense layer without bias: entry `i` is the sum over `k` of `W i k * v k`. -/
def dense {a b : ℕ} (W : Fin a → Fin b → EReal) (v : Fin b → EReal) : Fin a → EReal := fun i => ∑ k, W i k * v k

/-- The rectifier, entry by entry. -/
def relu {a : ℕ} (v : Fin a → EReal) : Fin a → EReal := fun i => max (v i) 0

theorem isReal_dense {a b : ℕ} {W : Fin a → Fin b → EReal} {v : Fin b → EReal} (hW : ∀ i k, IsReal (W i k))
    (hv : ∀ k, IsReal (v k)) (i : Fin a) : IsReal (dense W v i) :=
  IsReal.sum _ _ fun k _ => (hW i k).mul (hv k)

theorem isReal_relu {a : ℕ} {v : Fin a → EReal} (hv : ∀ k, IsReal (v k)) (i : Fin a) : IsReal (relu v i) :=
  (hv i).max isReal_zero

/-- The same layer with each product written the other way round. -/
theorem sum_mul_comm_eq_dense {a b : ℕ} (W : Fin a → Fin b → EReal) (v : Fin b → EReal) (i : Fin a) :
    ∑ k, v k * W i k = dense W v i :=
  Finset.sum_congr rfl fun k _ => mul_comm _ _

/-! ## Moving a matrix across a sum -/

/-- On real numbers, a weighted sum of dense outputs is the dense output of the weighted sum of the rows. -/
theorem real_fuse {ι κ : Type*} [Fintype ι] [Fintype κ] (f : ι → ℝ) (B : ι → κ → ℝ) (h : κ → ℝ) :
    ∑ j, f j * ∑ k, B j k * h k = ∑ k, (∑ j, f j * B j k) * h k := by
  simp only [Finset.mul_sum, Finset.sum_mul]
  rw [Finset.sum_comm]
  refine Finset.sum_congr rfl fun k _ => Finset.sum_congr rfl fun j _ => ?_
  ring

/-- The same over the extended reals, when every entry is a real number. -/
theorem fuse {ι κ : Type*} [Fintype ι] [Fintype κ] (f : ι → EReal) (B : ι → κ → EReal) (h : κ → EReal)
    (hf : ∀ j, IsReal (f j)) (hB : ∀ j k, IsReal (B j k)) (hh : ∀ k, IsReal (h k)) :
    ∑ j, f j * ∑ k, B j k * h k = ∑ k, (∑ j, f j * B j k) * h k := by
  choose f' hf' using hf
  choose B' hB' using hB
  choose h' hh' using hh
  obtain rfl : f = fun j => ((f' j : ℝ) : EReal) := funext hf'
  obtain rfl : B = fun j k => ((B' j k : ℝ) : EReal) := funext fun j => funext (hB' j)
  obtain rfl : h = fun k => ((h' k : ℝ) : EReal) := funext hh'
  simp only [← EReal.coe_mul, coe_sum]
  exact congrArg _ (real_fuse f' B' h')

/-! ## The first colour layer, two ways -/

/-- The reference's input of the first colour layer: the three view coordinates, then entries 1 to 15 of the third
    layer's 16 outputs. -/
def viewsThenFeatures (views : Fin 3 → EReal) (s : Fin 16 → EReal) : Fin 18 → EReal := fun k =>
  if h : k.val < 3 then views ⟨k.val, h⟩ else s ⟨k.val - 3 + 1, by have := k.isLt; omega⟩

/-- The first three columns of the first colour layer's matrix: the view coordinates' share. -/
def viewColumns (C0 : Fin 64 → Fin 18 → EReal) : Fin 64 → Fin 3 → EReal := fun i k =>
  C0 i ⟨k.val, by have := k.isLt; omega⟩

/-- The fused matrix: the last 15 columns of the first colour layer's matrix times the last 15 rows of the third
    layer's. -/
def fused (C0 : Fin 64 → Fin 18 → EReal) (A2 : Fin 16 → Fin 64 → EReal) : Fin 64 → Fin 64 → EReal := fun i k =>
  ∑ j : Fin 15, C0 i ⟨3 + j.val, by have := j.isLt; omega⟩ * A2 ⟨1 + j.val, by have := j.isLt; omega⟩ k

/-- The third layer's first row, as a one-row matrix: the density's weights. -/
def densityRow (A2 : Fin 16 → Fin 64 → EReal) : Fin 1 → Fin 64 → EReal := fun _ k => A2 0 k

/-- THE LAW: on real entries the reference's first colour layer is the kernel's sum of two products. -/
theorem firstColourLayer (C0 : Fin 64 → Fin 18 → EReal) (A2 : Fin 16 → Fin 64 → EReal) (views : Fin 3 → EReal)
    (h1 : Fin 64 → EReal) (hC0 : ∀ i k, IsReal (C0 i k)) (hA2 : ∀ j k, IsReal (A2 j k)) (hh : ∀ k, IsReal (h1 k))
    (i : Fin 64) :
    dense C0 (viewsThenFeatures views (dense A2 h1)) i = dense (viewColumns C0) views i + dense (fused C0 A2) h1 i := by
  have split : ∑ k : Fin 18, C0 i k * viewsThenFeatures views (dense A2 h1) k
      = (∑ k : Fin 3, C0 i (Fin.castAdd 15 k) * viewsThenFeatures views (dense A2 h1) (Fin.castAdd 15 k))
        + ∑ j : Fin 15, C0 i (Fin.natAdd 3 j) * viewsThenFeatures views (dense A2 h1) (Fin.natAdd 3 j) :=
    Fin.sum_univ_add (a := 3) (b := 15) (fun k : Fin 18 => C0 i k * viewsThenFeatures views (dense A2 h1) k)
  have e1 : (∑ k : Fin 3, C0 i (Fin.castAdd 15 k) * viewsThenFeatures views (dense A2 h1) (Fin.castAdd 15 k))
      = ∑ k : Fin 3, viewColumns C0 i k * views k :=
    Finset.sum_congr rfl fun k _ => by
      have e : viewsThenFeatures views (dense A2 h1) (Fin.castAdd 15 k) = views k := dif_pos k.isLt
      rw [e]
      rfl
  have e : ∀ j : Fin 15, viewsThenFeatures views (dense A2 h1) (Fin.natAdd 3 j)
      = ∑ k, A2 ⟨1 + j.val, by have := j.isLt; omega⟩ k * h1 k := fun j => by
    have hn : ¬ (Fin.natAdd 3 j : Fin 18).val < 3 := by simp
    unfold viewsThenFeatures
    rw [dif_neg hn]
    unfold dense
    exact congrArg (fun r : Fin 16 => ∑ k, A2 r k * h1 k) (Fin.ext (by simp; omega))
  have e2 : (∑ j : Fin 15, C0 i (Fin.natAdd 3 j) * viewsThenFeatures views (dense A2 h1) (Fin.natAdd 3 j))
      = ∑ k : Fin 64, fused C0 A2 i k * h1 k := by
    simp only [e]
    exact fuse (fun j : Fin 15 => C0 i (Fin.natAdd 3 j))
      (fun (j : Fin 15) k => A2 ⟨1 + j.val, by have := j.isLt; omega⟩ k) h1 (fun j => hC0 i _) (fun j k => hA2 _ k) hh
  show ∑ k : Fin 18, C0 i k * viewsThenFeatures views (dense A2 h1) k
    = (∑ k : Fin 3, viewColumns C0 i k * views k) + ∑ k : Fin 64, fused C0 A2 i k * h1 k
  rw [split, e1, e2]

/-! ## The network, the two ways -/

/-- The 64 hidden values after the two rectified layers. -/
def hidden (A0 : Fin 64 → Fin 3 → EReal) (A1 : Fin 64 → Fin 64 → EReal) (pts : Fin 3 → EReal) : Fin 64 → EReal :=
  relu (dense A1 (relu (dense A0 pts)))

/-- The colour head from the first colour layer's output on. -/
def colourHead (C1 C2 : Fin 64 → Fin 64 → EReal) (C3 : Fin 3 → Fin 64 → EReal) (pre : Fin 64 → EReal) : Fin 3 → EReal :=
  dense C3 (relu (dense C2 (relu (dense C1 (relu pre)))))

/-- Three colours, then the density. -/
def colourThenDensity (colour : Fin 3 → EReal) (density : EReal) : Fin 4 → EReal := fun p =>
  if h : p.val < 3 then colour ⟨p.val, h⟩ else density

/-- The reference's result row. -/
def reference (A0 : Fin 64 → Fin 3 → EReal) (A1 : Fin 64 → Fin 64 → EReal) (A2 : Fin 16 → Fin 64 → EReal)
    (C0 : Fin 64 → Fin 18 → EReal) (C1 C2 : Fin 64 → Fin 64 → EReal) (C3 : Fin 3 → Fin 64 → EReal)
    (pts views : Fin 3 → EReal) : Fin 4 → EReal :=
  colourThenDensity
    (colourHead C1 C2 C3 (dense C0 (viewsThenFeatures views (dense A2 (hidden A0 A1 pts)))))
    (dense A2 (hidden A0 A1 pts) 0)

/-- The kernel's result row, from the matrices it is handed: the view columns `C0v`, the fused matrix `M` and the
    density's one-row matrix `s0`. -/
def kernel (A0 : Fin 64 → Fin 3 → EReal) (A1 M : Fin 64 → Fin 64 → EReal) (C0v : Fin 64 → Fin 3 → EReal)
    (s0 : Fin 1 → Fin 64 → EReal) (C1 C2 : Fin 64 → Fin 64 → EReal) (C3 : Fin 3 → Fin 64 → EReal)
    (pts views : Fin 3 → EReal) : Fin 4 → EReal :=
  colourThenDensity
    (colourHead C1 C2 C3 (fun i => dense C0v views i + dense M (hidden A0 A1 pts) i))
    (dense s0 (hidden A0 A1 pts) 0)

/-- THE TWO AGREE when the input row and the first five matrices hold real numbers. -/
theorem kernel_eq_reference (A0 : Fin 64 → Fin 3 → EReal) (A1 : Fin 64 → Fin 64 → EReal) (A2 : Fin 16 → Fin 64 → EReal)
    (C0 : Fin 64 → Fin 18 → EReal) (C1 C2 : Fin 64 → Fin 64 → EReal) (C3 : Fin 3 → Fin 64 → EReal)
    (pts views : Fin 3 → EReal)
    (hA0 : ∀ i k, IsReal (A0 i k)) (hA1 : ∀ i k, IsReal (A1 i k)) (hA2 : ∀ i k, IsReal (A2 i k))
    (hC0 : ∀ i k, IsReal (C0 i k)) (hp : ∀ k, IsReal (pts k)) :
    kernel A0 A1 (fused C0 A2) (viewColumns C0) (densityRow A2) C1 C2 C3 pts views
      = reference A0 A1 A2 C0 C1 C2 C3 pts views := by
  have hh : ∀ k, IsReal (hidden A0 A1 pts k) :=
    isReal_relu (isReal_dense hA1 (isReal_relu (isReal_dense hA0 hp)))
  unfold kernel reference
  have e : (fun i => dense (viewColumns C0) views i + dense (fused C0 A2) (hidden A0 A1 pts) i)
      = dense C0 (viewsThenFeatures views (dense A2 (hidden A0 A1 pts))) :=
    funext fun i => (firstColourLayer C0 A2 views _ hC0 hA2 hh i).symm
  rw [e]
  rfl

end Cert.Mlp

end
-- ==== Proof.Rows.lean ====
/-
  Arrays as matrices and rows, and the result array both programs are shown to compute.

  A rank-2 array read at coordinates is a matrix; row `n` of the input array holds three point coordinates
  (columns 0 to 2) and three view coordinates (columns 3 to 5). The result array holds at `(n, p)` entry `p` of the
  network's result row (Mlp.lean) on input row `n`.
-/
import Idealize.ShloMosaic.Lib.ValueIdx
import proofs.«181460_j6957847019903_2_alg».proof.Proof.Mlp

noncomputable section

namespace Cert.Rows

open Idealize.ShloMosaic Idealize.ShloMosaic.ValueIdx

/-- A rank-2 array as a matrix of its entries. -/
def mat {a b : ℕ} (x : (⟨2, ![a, b]⟩ : Shape).Idx → EReal) : Fin a → Fin b → EReal := fun i k => x (ix2 i k)

/-- The point coordinates of input row `n`: columns 0 to 2. -/
def rowPts (x : (⟨2, ![1048576, 6]⟩ : Shape).Idx → EReal) (n : Fin 1048576) : Fin 3 → EReal := fun k =>
  x (ix2 n (⟨k.val, by have := k.isLt; omega⟩ : Fin 6))

/-- The view coordinates of input row `n`: columns 3 to 5. -/
def rowViews (x : (⟨2, ![1048576, 6]⟩ : Shape).Idx → EReal) (n : Fin 1048576) : Fin 3 → EReal := fun k =>
  x (ix2 n (⟨3 + k.val, by have := k.isLt; omega⟩ : Fin 6))

/-- THE RESULT ARRAY: at `(n, p)`, entry `p` of the network's result row on input row `n`, from the seven matrices. -/
def result (x0 : (⟨2, ![1048576, 6]⟩ : Shape).Idx → EReal) (x1 : (⟨2, ![64, 3]⟩ : Shape).Idx → EReal)
    (x2 : (⟨2, ![64, 64]⟩ : Shape).Idx → EReal) (x3 : (⟨2, ![16, 64]⟩ : Shape).Idx → EReal)
    (x4 : (⟨2, ![64, 18]⟩ : Shape).Idx → EReal) (x5 x6 : (⟨2, ![64, 64]⟩ : Shape).Idx → EReal)
    (x7 : (⟨2, ![3, 64]⟩ : Shape).Idx → EReal) : (⟨2, ![1048576, 4]⟩ : Shape).Idx → EReal := fun i =>
  Mlp.reference (mat x1) (mat x2) (mat x3) (mat x4) (mat x5) (mat x6) (mat x7) (rowPts x0 (i 0)) (rowViews x0 (i 0)) (i 1)

end Cert.Rows

end
-- ==== Proof.RefRead.lean ====
/-
  The reference program read at an entry of its result.

  Stage by stage, each value the reference computes is read at `(n, i)` as the matching piece of the network on input
  row `n` (Mlp.lean): a `dot_general` with a transposed weight matrix is a dense layer (each product written the
  other way round), a `maximum` with the zero splat is the rectifier, the slices and the two concatenations pick
  coordinates. The result at `(n, p)` is entry `p` of the reference's result row.
-/
import proofs.«181460_j6957847019903_2_alg».proof.Proof.Gen.ReferenceIdeal.Read
import proofs.«181460_j6957847019903_2_alg».proof.Proof.Rows

noncomputable section

open scoped BigOperators

namespace Cert.RefValue

open Cert.ReferenceIdeal Cert.ReferenceIdeal.Read Idealize.ShloMosaic Idealize.ShloMosaic.ValueIdx Cert.Rows Cert.Mlp

variable (x0 : (⟨S1048576x6, .f32⟩ : BufTy).Contents (Elt Ideal)) (x1 : (⟨S64x3, .f32⟩ : BufTy).Contents (Elt Ideal)) (x2 : (⟨S64x64, .f32⟩ : BufTy).Contents (Elt Ideal)) (x3 : (⟨S16x64, .f32⟩ : BufTy).Contents (Elt Ideal)) (x4 : (⟨S64x18, .f32⟩ : BufTy).Contents (Elt Ideal)) (x5 x6 : (⟨S64x64, .f32⟩ : BufTy).Contents (Elt Ideal)) (x7 : (⟨S3x64, .f32⟩ : BufTy).Contents (Elt Ideal))
variable (n : Fin 1048576)

/-! ## The zero splats the rectifiers compare with -/

theorem zero0 (i : S1048576x64.Idx) : val_main_call0_v0 (F := Ideal) i = 0 := by
  rw [val_main_call0_v0_apply]
  exact Ideal.ofBits_zero_f32

theorem zero1 (i : S1048576x64.Idx) : val_main_call1_v0 (F := Ideal) i = 0 := by
  rw [val_main_call1_v0_apply]
  exact Ideal.ofBits_zero_f32

theorem zero2 (i : S1048576x64.Idx) : val_main_call2_v0 (F := Ideal) i = 0 := by
  rw [val_main_call2_v0_apply]
  exact Ideal.ofBits_zero_f32

theorem zero3 (i : S1048576x64.Idx) : val_main_call3_v0 (F := Ideal) i = 0 := by
  rw [val_main_call3_v0_apply]
  exact Ideal.ofBits_zero_f32

theorem zero4 (i : S1048576x64.Idx) : val_main_call4_v0 (F := Ideal) i = 0 := by
  rw [val_main_call4_v0_apply]
  exact Ideal.ofBits_zero_f32

/-! ## The density network -/

theorem stage3 (i : Fin 64) : val_main_v3 (F := Ideal) x0 x1 (ix2 n i) = dense (mat x1) (rowPts x0 n) i := by
  rw [val_main_v3_apply]
  refine (Finset.sum_congr rfl fun k _ => ?_).trans (sum_mul_comm_eq_dense _ _ _)
  rw [val_main_v0_apply, val_main_v2_apply]
  have el : idx_main_v0 (lidx_main_v3 (ix2 n i) k) = ix2 n (⟨k.val, by have := k.isLt; omega⟩ : Fin 6) := funext fun a => Fin.ext (by match a with | ⟨0, _⟩ => rfl | ⟨1, _⟩ => rfl)
  have er : idx_main_v2 (ridx_main_v3 (ix2 n i) k) = ix2 i k := funext fun a => Fin.ext (by match a with | ⟨0, _⟩ => rfl | ⟨1, _⟩ => rfl)
  rw [el, er]
  rfl

theorem stage4 (i : Fin 64) : val_main_v4 (F := Ideal) x0 x1 (ix2 n i) = relu (dense (mat x1) (rowPts x0 n)) i := by
  show max (val_main_v3 (F := Ideal) x0 x1 (ix2 n i)) (val_main_call0_v0 (F := Ideal) (ix2 n i)) = _
  rw [stage3, zero0]
  rfl

theorem stage6 (i : Fin 64) : val_main_v6 (F := Ideal) x0 x1 x2 (ix2 n i) = dense (mat x2) (relu (dense (mat x1) (rowPts x0 n))) i := by
  rw [val_main_v6_apply]
  refine (Finset.sum_congr rfl fun k _ => ?_).trans (sum_mul_comm_eq_dense _ _ _)
  rw [val_main_v5_apply]
  have el : lidx_main_v6 (ix2 n i) k = ix2 n k := funext fun a => Fin.ext (by match a with | ⟨0, _⟩ => rfl | ⟨1, _⟩ => rfl)
  have er : idx_main_v5 (ridx_main_v6 (ix2 n i) k) = ix2 i k := funext fun a => Fin.ext (by match a with | ⟨0, _⟩ => rfl | ⟨1, _⟩ => rfl)
  rw [el, er, stage4]
  rfl

theorem stage7 (i : Fin 64) : val_main_v7 (F := Ideal) x0 x1 x2 (ix2 n i) = hidden (mat x1) (mat x2) (rowPts x0 n) i := by
  show max (val_main_v6 (F := Ideal) x0 x1 x2 (ix2 n i)) (val_main_call1_v0 (F := Ideal) (ix2 n i)) = _
  rw [stage6, zero1]
  rfl

theorem stage9 (i : Fin 16) : val_main_v9 (F := Ideal) x0 x1 x2 x3 (ix2 n i) = dense (mat x3) (hidden (mat x1) (mat x2) (rowPts x0 n)) i := by
  rw [val_main_v9_apply]
  refine (Finset.sum_congr rfl fun k _ => ?_).trans (sum_mul_comm_eq_dense _ _ _)
  rw [val_main_v8_apply]
  have el : lidx_main_v9 (ix2 n i) k = ix2 n k := funext fun a => Fin.ext (by match a with | ⟨0, _⟩ => rfl | ⟨1, _⟩ => rfl)
  have er : idx_main_v8 (ridx_main_v9 (ix2 n i) k) = ix2 i k := funext fun a => Fin.ext (by match a with | ⟨0, _⟩ => rfl | ⟨1, _⟩ => rfl)
  rw [el, er, stage7]
  rfl

/-! ## The first colour layer's input: view coordinates, then features 1 to 15 -/

theorem stage13 (k : Fin 18) : val_main_v13 (F := Ideal) x0 x1 x2 x3 (ix2 n k) = viewsThenFeatures (rowViews x0 n) (dense (mat x3) (hidden (mat x1) (mat x2) (rowPts x0 n))) k := by
  unfold val_main_v13
  by_cases h : k.val < 3
  · refine (concatenate_pair_apply_left (1 : Fin 2) (val_main_v1 (F := Ideal) x0) (val_main_v12 (F := Ideal) x0 x1 x2 x3)
      _ (ix2 n k) rfl (ix2 n (⟨k.val, h⟩ : Fin 3))
      (fun b => match b with | ⟨0, _⟩ => rfl | ⟨1, _⟩ => rfl)).trans ?_
    rw [val_main_v1_apply]
    have ei : idx_main_v1 (ix2 n (⟨k.val, h⟩ : Fin 3)) = ix2 n (⟨3 + k.val, by omega⟩ : Fin 6) := funext fun a => Fin.ext (by match a with | ⟨0, _⟩ => rfl | ⟨1, _⟩ => rfl)
    rw [ei]
    unfold viewsThenFeatures
    rw [dif_pos h]
    rfl
  · have hk : k.val < 18 := k.isLt
    refine (concatenate_pair_apply_right (1 : Fin 2) (val_main_v1 (F := Ideal) x0) (val_main_v12 (F := Ideal) x0 x1 x2 x3)
      _ (ix2 n k) rfl rfl (ix2 n (⟨k.val - 3, by omega⟩ : Fin 15))
      (fun b => match b with | ⟨0, _⟩ => fun _ => rfl | ⟨1, _⟩ => fun hne => absurd rfl hne)
      (by show k.val - 3 + 3 = k.val; omega)).trans ?_
    rw [val_main_v12_apply]
    have ei : idx_main_v12 (ix2 n (⟨k.val - 3, by omega⟩ : Fin 15)) = ix2 n (⟨1 + (k.val - 3), by omega⟩ : Fin 16) := funext fun a => Fin.ext (by match a with | ⟨0, _⟩ => rfl | ⟨1, _⟩ => rfl)
    rw [ei, stage9]
    unfold viewsThenFeatures
    rw [dif_neg h]
    exact congrArg (dense (mat x3) (hidden (mat x1) (mat x2) (rowPts x0 n))) (Fin.ext (by show 1 + (k.val - 3) = k.val - 3 + 1; omega))

/-! ## The colour network -/

theorem stage15 (i : Fin 64) : val_main_v15 (F := Ideal) x0 x1 x2 x3 x4 (ix2 n i) = dense (mat x4) (viewsThenFeatures (rowViews x0 n) (dense (mat x3) (hidden (mat x1) (mat x2) (rowPts x0 n)))) i := by
  rw [val_main_v15_apply]
  refine (Finset.sum_congr rfl fun k _ => ?_).trans (sum_mul_comm_eq_dense _ _ _)
  rw [val_main_v14_apply]
  have el : lidx_main_v15 (ix2 n i) k = ix2 n k := funext fun a => Fin.ext (by match a with | ⟨0, _⟩ => rfl | ⟨1, _⟩ => rfl)
  have er : idx_main_v14 (ridx_main_v15 (ix2 n i) k) = ix2 i k := funext fun a => Fin.ext (by match a with | ⟨0, _⟩ => rfl | ⟨1, _⟩ => rfl)
  rw [el, er, stage13]
  rfl

theorem stage16 (i : Fin 64) : val_main_v16 (F := Ideal) x0 x1 x2 x3 x4 (ix2 n i) = relu (dense (mat x4) (viewsThenFeatures (rowViews x0 n) (dense (mat x3) (hidden (mat x1) (mat x2) (rowPts x0 n))))) i := by
  show max (val_main_v15 (F := Ideal) x0 x1 x2 x3 x4 (ix2 n i)) (val_main_call2_v0 (F := Ideal) (ix2 n i)) = _
  rw [stage15, zero2]
  rfl

theorem stage18 (i : Fin 64) : val_main_v18 (F := Ideal) x0 x1 x2 x3 x4 x5 (ix2 n i) = dense (mat x5) (relu (dense (mat x4) (viewsThenFeatures (rowViews x0 n) (dense (mat x3) (hidden (mat x1) (mat x2) (rowPts x0 n)))))) i := by
  rw [val_main_v18_apply]
  refine (Finset.sum_congr rfl fun k _ => ?_).trans (sum_mul_comm_eq_dense _ _ _)
  rw [val_main_v17_apply]
  have el : lidx_main_v18 (ix2 n i) k = ix2 n k := funext fun a => Fin.ext (by match a with | ⟨0, _⟩ => rfl | ⟨1, _⟩ => rfl)
  have er : idx_main_v17 (ridx_main_v18 (ix2 n i) k) = ix2 i k := funext fun a => Fin.ext (by match a with | ⟨0, _⟩ => rfl | ⟨1, _⟩ => rfl)
  rw [el, er, stage16]
  rfl

theorem stage19 (i : Fin 64) : val_main_v19 (F := Ideal) x0 x1 x2 x3 x4 x5 (ix2 n i) = relu (dense (mat x5) (relu (dense (mat x4) (viewsThenFeatures (rowViews x0 n) (dense (mat x3) (hidden (mat x1) (mat x2) (rowPts x0 n))))))) i := by
  show max (val_main_v18 (F := Ideal) x0 x1 x2 x3 x4 x5 (ix2 n i)) (val_main_call3_v0 (F := Ideal) (ix2 n i)) = _
  rw [stage18, zero3]
  rfl

theorem stage21 (i : Fin 64) : val_main_v21 (F := Ideal) x0 x1 x2 x3 x4 x5 x6 (ix2 n i) = dense (mat x6) (relu (dense (mat x5) (relu (dense (mat x4) (viewsThenFeatures (rowViews x0 n) (dense (mat x3) (hidden (mat x1) (mat x2) (rowPts x0 n)))))))) i := by
  rw [val_main_v21_apply]
  refine (Finset.sum_congr rfl fun k _ => ?_).trans (sum_mul_comm_eq_dense _ _ _)
  rw [val_main_v20_apply]
  have el : lidx_main_v21 (ix2 n i) k = ix2 n k := funext fun a => Fin.ext (by match a with | ⟨0, _⟩ => rfl | ⟨1, _⟩ => rfl)
  have er : idx_main_v20 (ridx_main_v21 (ix2 n i) k) = ix2 i k := funext fun a => Fin.ext (by match a with | ⟨0, _⟩ => rfl | ⟨1, _⟩ => rfl)
  rw [el, er, stage19]
  rfl

theorem stage22 (i : Fin 64) : val_main_v22 (F := Ideal) x0 x1 x2 x3 x4 x5 x6 (ix2 n i) = relu (dense (mat x6) (relu (dense (mat x5) (relu (dense (mat x4) (viewsThenFeatures (rowViews x0 n) (dense (mat x3) (hidden (mat x1) (mat x2) (rowPts x0 n))))))))) i := by
  show max (val_main_v21 (F := Ideal) x0 x1 x2 x3 x4 x5 x6 (ix2 n i)) (val_main_call4_v0 (F := Ideal) (ix2 n i)) = _
  rw [stage21, zero4]
  rfl

theorem stage24 (i : Fin 3) : val_main_v24 (F := Ideal) x0 x1 x2 x3 x4 x5 x6 x7 (ix2 n i)
    = colourHead (mat x5) (mat x6) (mat x7) (dense (mat x4) (viewsThenFeatures (rowViews x0 n) (dense (mat x3) (hidden (mat x1) (mat x2) (rowPts x0 n))))) i := by
  rw [val_main_v24_apply]
  refine (Finset.sum_congr rfl fun k _ => ?_).trans (sum_mul_comm_eq_dense _ _ _)
  rw [val_main_v23_apply]
  have el : lidx_main_v24 (ix2 n i) k = ix2 n k := funext fun a => Fin.ext (by match a with | ⟨0, _⟩ => rfl | ⟨1, _⟩ => rfl)
  have er : idx_main_v23 (ridx_main_v24 (ix2 n i) k) = ix2 i k := funext fun a => Fin.ext (by match a with | ⟨0, _⟩ => rfl | ⟨1, _⟩ => rfl)
  rw [el, er, stage22]
  rfl

/-! ## The density column and the result -/

theorem stage25 (z : Fin 1) : val_main_v25 (F := Ideal) x0 x1 x2 x3 (ix2 n z) = dense (mat x3) (hidden (mat x1) (mat x2) (rowPts x0 n)) 0 := by
  rw [val_main_v25_apply, val_main_v11_apply, val_main_v10_apply]
  have ei : idx_main_v10 (idx_main_v11 (idx_main_v25 (ix2 n z))) = ix2 n (0 : Fin 16) :=
    funext fun a => Fin.ext (by
      match a with
      | ⟨0, _⟩ => exact Nat.div_one _
      | ⟨1, _⟩ => rfl)
  rw [ei, stage9]

theorem stage26 (p : Fin 4) : val_main_v26 (F := Ideal) x0 x1 x2 x3 x4 x5 x6 x7 (ix2 n p)
    = reference (mat x1) (mat x2) (mat x3) (mat x4) (mat x5) (mat x6) (mat x7) (rowPts x0 n) (rowViews x0 n) p := by
  unfold val_main_v26
  by_cases h : p.val < 3
  · refine (concatenate_pair_apply_left (1 : Fin 2) (val_main_v24 (F := Ideal) x0 x1 x2 x3 x4 x5 x6 x7) (val_main_v25 (F := Ideal) x0 x1 x2 x3)
      _ (ix2 n p) rfl (ix2 n (⟨p.val, h⟩ : Fin 3))
      (fun b => match b with | ⟨0, _⟩ => rfl | ⟨1, _⟩ => rfl)).trans ?_
    rw [stage24]
    unfold reference colourThenDensity
    rw [dif_pos h]
  · have hp : p.val < 4 := p.isLt
    refine (concatenate_pair_apply_right (1 : Fin 2) (val_main_v24 (F := Ideal) x0 x1 x2 x3 x4 x5 x6 x7) (val_main_v25 (F := Ideal) x0 x1 x2 x3)
      _ (ix2 n p) rfl rfl (ix2 n (⟨p.val - 3, by omega⟩ : Fin 1))
      (fun b => match b with | ⟨0, _⟩ => fun _ => rfl | ⟨1, _⟩ => fun hne => absurd rfl hne)
      (by show p.val - 3 + 1 * 0 + 3 = p.val; omega)).trans ?_
    rw [stage25]
    unfold reference colourThenDensity
    rw [dif_neg h]

/-- THE REFERENCE'S RESULT is the result array. -/
theorem reference_eq_result : val_main_v26 (F := Ideal) x0 x1 x2 x3 x4 x5 x6 x7 = result x0 x1 x2 x3 x4 x5 x6 x7 := by
  funext i
  obtain ⟨n, p, rfl⟩ : ∃ (n : Fin 1048576) (p : Fin 4), i = ix2 n p := ⟨i 0, i 1, eq_ix2 i⟩
  exact stage26 x0 x1 x2 x3 x4 x5 x6 x7 n p

end Cert.RefValue

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.Payload.lean ====
/-
  The kernel's body read at one entry of the block it stores.

  At a grid point the body loads a 6 x 8192 block of the transposed input (one sample per column) and eight weight
  matrices, and stores a 4 x 8192 block. Column `q` of what it stores depends on column `q` of the input block only:
  every matrix product is read at `(i, q)` as a dense layer applied to the column (LibPlainDot.lean), every
  `maximumf` with the zero splat as the rectifier, the two row slices of the input block as the point and the view
  coordinates, and the final concatenation along the rows puts the three colours above the density. So the stored
  block at `(p, q)` is entry `p` of the kernel's result row (Mlp.lean) on the sample in column `q`.
-/
import proofs.«181460_j6957847019903_2_alg».proof.Proof.Gen.KernelIdeal.Frame
import Idealize.ShloMosaic.Lib.Pipeline.Value
import proofs.«181460_j6957847019903_2_alg».proof.Proof.Rows
import proofs.«181460_j6957847019903_2_alg».proof.Proof.LibPlainDot

noncomputable section

open scoped BigOperators

namespace Cert.KernelValue

open Cert.KernelIdeal Cert.KernelIdeal.Gen Idealize.ShloMosaic Idealize.ShloMosaic.ValueIdx Cert.Rows Cert.Mlp

/-- The point coordinates of the sample in column `q` of a 6 x N array of samples: rows 0 to 2. -/
def colPts {N : ℕ} (v : (⟨2, ![6, N]⟩ : Shape).Idx → EReal) (q : Fin N) : Fin 3 → EReal := fun k =>
  v (ix2 (⟨k.val, by have := k.isLt; omega⟩ : Fin 6) q)

/-- Its view coordinates: rows 3 to 5. -/
def colViews {N : ℕ} (v : (⟨2, ![6, N]⟩ : Shape).Idx → EReal) (q : Fin N) : Fin 3 → EReal := fun k =>
  v (ix2 (⟨3 + k.val, by have := k.isLt; omega⟩ : Fin 6) q)

/-! ## One rectifier and one matrix product, read at a column -/

/-- A `maximumf` with the zero splat (then rounded, which changes nothing at the ideal values), read at `(i, q)`: the
    rectifier of the column. -/
theorem relu_col {M N : ℕ} (Y : FVec Ideal ⟨2, ![M, N]⟩ .f32) (h : FTy.bits .bf16 < FTy.bits .f32) (q : Fin N)
    (pre : Fin M → EReal) (hY : ∀ i, Y (ix2 i q) = pre i) (i : Fin M) :
    (truncf .bf16 (maximumf Y (broadcast ⟨2, ![M, N]⟩ (Scalar.ofBits (F := Ideal) .f32 0x00000000#32))) h
      : FVec Ideal ⟨2, ![M, N]⟩ .bf16) (ix2 i q) = relu pre i := by
  show max (Y (ix2 i q)) (Ideal.ofBits .f32 0x00000000#32) = _
  rw [hY, Ideal.ofBits_zero_f32]
  rfl

/-- The same without the rounding. -/
theorem relu_col' {M N : ℕ} (Y : FVec Ideal ⟨2, ![M, N]⟩ .f32) (q : Fin N)
    (pre : Fin M → EReal) (hY : ∀ i, Y (ix2 i q) = pre i) (i : Fin M) :
    (maximumf Y (broadcast ⟨2, ![M, N]⟩ (Scalar.ofBits (F := Ideal) .f32 0x00000000#32))) (ix2 i q) = relu pre i := by
  show max (Y (ix2 i q)) (Ideal.ofBits .f32 0x00000000#32) = _
  rw [hY, Ideal.ofBits_zero_f32]
  rfl

/-- A plain matrix product into the zero splat, read at `(i, q)`: the dense layer of the right operand's column. -/
theorem dense_col {M K N : ℕ} (d : DotDims ⟨2, ![M, K]⟩ ⟨2, ![K, N]⟩ ⟨2, ![M, N]⟩) (hd : d = DotDims.plain M K N)
    {φ₁ φ₂ : FTy} (W : FVec Ideal ⟨2, ![M, K]⟩ φ₁) (X : FVec Ideal ⟨2, ![K, N]⟩ φ₂) (q : Fin N) (act : Fin K → EReal)
    (hX : ∀ k, X (ix2 k q) = act k) (i : Fin M) :
    matmul d none W X (constant (F := Ideal) ⟨2, ![M, N]⟩ .f32 0x00000000#32) (ix2 i q) = dense (mat W) act i := by
  rw [PlainDot.matmul_zero_apply d hd]
  exact Finset.sum_congr rfl fun k _ => by rw [hX k]; rfl

/-! ## The body's values, column by column -/

/-- The 64 hidden values of the sample in column `q`. -/
theorem pay6_col (v0 : Vec Ideal S6x8192 .f32) (v4 : Vec Ideal S64x3 .bf16) (v6 : Vec Ideal S64x64 .bf16) (q : Fin 8192) (i : Fin 64) :
    k0_pay6 v0 v4 v6 (ix2 i q) = hidden (mat v4) (mat v6) (colPts v0 q) i := by
  unfold k0_pay6 k0_pay2
  dsimp only
  simp only [shapeCast_self]
  refine relu_col _ _ q (dense (mat v6) (relu (dense (mat v4) (colPts v0 q)))) (fun i => ?_) i
  refine dense_col _ rfl v6 _ q (relu (dense (mat v4) (colPts v0 q))) (fun k => ?_) i
  refine relu_col _ _ q (dense (mat v4) (colPts v0 q)) (fun i => ?_) k
  refine dense_col _ rfl v4 _ q (colPts v0 q) (fun k => ?_) i
  show extractStridedSlice S3x8192 ![0, 0] v0 slices_S6x8192_o0_0_S3x8192 (ix2 k q) = v0 (ix2 (⟨k.val, by have := k.isLt; omega⟩ : Fin 6) q)
  exact extractStridedSlice_apply ![0, 0] v0 slices_S6x8192_o0_0_S3x8192 (ix2 k q) (ix2 (⟨k.val, by have := k.isLt; omega⟩ : Fin 6) q) (fun a => match a with
    | ⟨0, _⟩ => by show k.val = 0 + k.val; omega
    | ⟨1, _⟩ => by show q.val = 0 + q.val; omega)

/-- The density of the sample in column `q`. -/
theorem pay7_col (v0 : Vec Ideal S6x8192 .f32) (v4 : Vec Ideal S64x3 .bf16) (v6 : Vec Ideal S64x64 .bf16) (v12 : Vec Ideal S1x64 .bf16)
    (q : Fin 8192) (z : Fin 1) :
    k0_pay7 v0 v4 v6 v12 (ix2 z q) = dense (mat v12) (hidden (mat v4) (mat v6) (colPts v0 q)) z := by
  unfold k0_pay7
  simp only [shapeCast_self]
  exact dense_col _ rfl v12 _ q _ (fun k => pay6_col v0 v4 v6 q k) z

/-- The first colour layer's output before its rectifier: the view coordinates' share plus the fused matrix applied to
    the hidden values. -/
theorem pay8_col (v0 : Vec Ideal S6x8192 .f32) (v4 : Vec Ideal S64x3 .bf16) (v6 v8 : Vec Ideal S64x64 .bf16) (v10 : Vec Ideal S64x3 .bf16)
    (q : Fin 8192) (i : Fin 64) :
    k0_pay8 v0 v4 v6 v8 v10 (ix2 i q)
      = dense (mat v10) (colViews v0 q) i + dense (mat v8) (hidden (mat v4) (mat v6) (colPts v0 q)) i := by
  unfold k0_pay8 k0_pay2
  dsimp only
  simp only [shapeCast_self]
  refine (addf_apply _ _ (ix2 i q)).trans (congrArg₂ (· + ·) ?_ ?_)
  · refine dense_col _ rfl v10 _ q (colViews v0 q) (fun k => ?_) i
    show extractStridedSlice S3x8192 ![3, 0] v0 slices_S6x8192_o3_0_S3x8192 (ix2 k q) = v0 (ix2 (⟨3 + k.val, by have := k.isLt; omega⟩ : Fin 6) q)
    exact extractStridedSlice_apply ![3, 0] v0 slices_S6x8192_o3_0_S3x8192 (ix2 k q) (ix2 (⟨3 + k.val, by have := k.isLt; omega⟩ : Fin 6) q) (fun a => match a with
      | ⟨0, _⟩ => by show 3 + k.val = 3 + k.val; omega
      | ⟨1, _⟩ => by show q.val = 0 + q.val; omega)
  · exact dense_col _ rfl v8 _ q _ (fun k => pay6_col v0 v4 v6 q k) i

/-- The stored value from the first colour layer's output and the density: three colours above the density. -/
theorem pay1_col (v15 v17 : FVec Ideal S64x64 .bf16) (v19 : FVec Ideal S3x64 .bf16) (v29 : FVec Ideal S1x8192 .f32)
    (v33 : FVec Ideal S64x8192 .f32) (q : Fin 8192) (pre : Fin 64 → EReal) (dens : EReal)
    (h33 : ∀ i, v33 (ix2 i q) = pre i) (h29 : ∀ z : Fin 1, v29 (ix2 z q) = dens) (p : Fin 4) :
    k0_pay1 v15 v17 v19 v29 v33 (ix2 p q) = colourThenDensity (colourHead (mat v15) (mat v17) (mat v19) pre) dens p := by
  unfold k0_pay1
  unfold colourThenDensity
  by_cases h : p.val < 3
  · refine (concatenate_pair_apply_left (t := S4x8192) (s₁ := S3x8192) (s₂ := S1x8192) (0 : Fin 2) _ v29 _ (ix2 p q) rfl (ix2 (⟨p.val, h⟩ : Fin 3) q)
      (fun b => match b with | ⟨0, _⟩ => rfl | ⟨1, _⟩ => rfl)).trans ?_
    rw [dif_pos h]
    refine dense_col _ rfl v19 _ q (relu (dense (mat v17) (relu (dense (mat v15) (relu pre))))) (fun k => ?_) _
    refine relu_col _ _ q (dense (mat v17) (relu (dense (mat v15) (relu pre)))) (fun i => ?_) k
    refine dense_col _ rfl v17 _ q (relu (dense (mat v15) (relu pre))) (fun k => ?_) i
    refine relu_col _ _ q (dense (mat v15) (relu pre)) (fun i => ?_) k
    refine dense_col _ rfl v15 _ q (relu pre) (fun k => ?_) i
    exact relu_col v33 _ q pre h33 k
  · have hp : p.val < 4 := p.isLt
    refine (concatenate_pair_apply_right (t := S4x8192) (s₁ := S3x8192) (s₂ := S1x8192) (0 : Fin 2) _ v29 _ (ix2 p q) rfl rfl (ix2 (⟨p.val - 3, by omega⟩ : Fin 1) q)
      (fun b => match b with | ⟨0, _⟩ => fun hne => absurd rfl hne | ⟨1, _⟩ => fun _ => rfl)
      (by show p.val - 3 + 3 = p.val; omega)).trans ?_
    rw [dif_neg h]
    exact h29 _

/-! ## The stored block -/

theorem hz : (![0, 0] : Fin 2 → Nat) = fun _ => 0 := funext fun a => by fin_cases a <;> rfl

/-- THE STORED BLOCK at `(p, q)`: entry `p` of the kernel's result row on the sample in column `q` of the input block,
    from the eight weight blocks. -/
theorem out_col (x0 : Vec Ideal S6x8192 .f32) (x1 : Vec Ideal S64x3 .bf16) (x2 x3 : Vec Ideal S64x64 .bf16) (x4 : Vec Ideal S64x3 .bf16)
    (x5 : Vec Ideal S1x64 .bf16) (x6 x7 : Vec Ideal S64x64 .bf16) (x8 : Vec Ideal S3x64 .bf16) (p : Fin 4) (q : Fin 8192) :
    out0_9 x0 x1 x2 x3 x4 x5 x6 x7 x8 (ix2 p q)
      = Mlp.kernel (mat x1) (mat x2) (mat x3) (mat x4) (mat x5) (mat x6) (mat x7) (mat x8) (colPts x0 q) (colViews x0 q) p := by
  unfold out0_9
  rw [View.canon_unit_zero hz]
  simp only [View.ld_unit_zero (S := S6x8192) hz, View.ld_unit_zero (S := S64x3) hz, View.ld_unit_zero (S := S64x64) hz,
    View.ld_unit_zero (S := S1x64) hz, View.ld_unit_zero (S := S3x64) hz]
  unfold k0_pay3 k0_pay4 k0_pay5
  simp only [shapeCast_self]
  exact pay1_col x6 x7 x8 _ _ q _ _ (fun i => pay8_col x0 x1 x2 x3 x4 q i)
    (fun z => by rw [Fin.fin_one_eq_zero z]; exact pay7_col x0 x1 x2 x5 q 0) p

end Cert.KernelValue

end
-- ==== Proof.Entry.lean ====
/-
  What the region finds in the arrays its windows stage.

  Before the kernel is launched the host transposes the input array (one sample per column), slices the first colour
  layer's matrix into its first three columns and its last fifteen, slices the third layer's matrix into its first
  row and its last fifteen, multiplies the two fifteen-wide pieces into the fused 64 x 64 matrix, and rounds every
  matrix to bf16, which changes nothing at the ideal values. Read as matrices (Rows.lean) the staged arrays are: the
  arguments' matrices themselves, the view columns, the density's row and the fused matrix (Mlp.lean); and the
  transposed input's column `n` holds input row `n`.
-/
import proofs.«181460_j6957847019903_2_alg».proof.Proof.Gen.KernelIdeal.Frame
import Idealize.ShloMosaic.Lib.StableHlo.Run
import Idealize.ShloMosaic.Lib.Pipeline.Value
import proofs.«181460_j6957847019903_2_alg».proof.Proof.Rows
import proofs.«181460_j6957847019903_2_alg».proof.Proof.LibPlainDot
import proofs.«181460_j6957847019903_2_alg».proof.Proof.Payload

noncomputable section

open scoped BigOperators

namespace Cert.KernelValue

open Cert.KernelIdeal Cert.KernelIdeal.Gen Idealize.ShloMosaic Idealize.ShloMosaic.TcCoe
  Idealize.ShloMosaic.ValueIdx Idealize.SL.Sem Cert.Rows Cert.Mlp

variable (m : (ℓ : Loc nD τ sig) → Buf (Elt Ideal) ℓ) (c : Dev nD)

/-! ## Each staged array as the host operations' term of the arguments -/

theorem entry13 : @Eq (FVec Ideal S6x1048576 .f32) (V m c main_v13) <| transpose S6x1048576 [1, 0] (m ((c : Thread nD τ).loc main_arg0)) transposes_S1048576x6_S6x1048576_1_0 := by
  show StableHlo.after hostOps0 (fun b => m (c, b)) (Proc.devRef .tc main_v13) = _
  after_results <;> rfl

theorem entry5 : @Eq (FVec Ideal S64x3 .bf16) (V m c main_v5) <| truncf (F := Ideal) .bf16 (m ((c : Thread nD τ).loc main_arg1)) bitsLt_bf16_f32 := by
  show StableHlo.after hostOps0 (fun b => m (c, b)) (Proc.devRef .tc main_v5) = _
  after_results <;> rfl

theorem entry6 : @Eq (FVec Ideal S64x64 .bf16) (V m c main_v6) <| truncf (F := Ideal) .bf16 (m ((c : Thread nD τ).loc main_arg2)) bitsLt_bf16_f32 := by
  show StableHlo.after hostOps0 (fun b => m (c, b)) (Proc.devRef .tc main_v6) = _
  after_results <;> rfl

theorem entry7 : @Eq (FVec Ideal S64x64 .bf16) (V m c main_v7) <| truncf (F := Ideal) .bf16 (Host.dotGeneral (F := Ideal) (φ₁ := .f32) (φ₂ := .f32) dot_S64x15_S15x64_S64x64_1_0_0_1_n_n none
      (extractStridedSlice S64x15 ![0, 3] (m ((c : Thread nD τ).loc main_arg4) : FVec Ideal S64x18 .f32) slices_S64x18_S64x15_0_3)
      (extractStridedSlice S15x64 ![1, 0] (m ((c : Thread nD τ).loc main_arg3) : FVec Ideal S16x64 .f32) slices_S16x64_S15x64_1_0)) bitsLt_bf16_f32 := by
  show StableHlo.after hostOps0 (fun b => m (c, b)) (Proc.devRef .tc main_v7) = _
  after_results <;> rfl

theorem entry8 : @Eq (FVec Ideal S64x3 .bf16) (V m c main_v8) <| truncf (F := Ideal) .bf16 (extractStridedSlice S64x3 ![0, 0] (m ((c : Thread nD τ).loc main_arg4)) slices_S64x18_S64x3_0_0) bitsLt_bf16_f32 := by
  show StableHlo.after hostOps0 (fun b => m (c, b)) (Proc.devRef .tc main_v8) = _
  after_results <;> rfl

theorem entry9 : @Eq (FVec Ideal S1x64 .bf16) (V m c main_v9) <| truncf (F := Ideal) .bf16 (extractStridedSlice S1x64 ![0, 0] (m ((c : Thread nD τ).loc main_arg3)) slices_S16x64_S1x64_0_0) bitsLt_bf16_f32 := by
  show StableHlo.after hostOps0 (fun b => m (c, b)) (Proc.devRef .tc main_v9) = _
  after_results <;> rfl

theorem entry10 : @Eq (FVec Ideal S64x64 .bf16) (V m c main_v10) <| truncf (F := Ideal) .bf16 (m ((c : Thread nD τ).loc main_arg5)) bitsLt_bf16_f32 := by
  show StableHlo.after hostOps0 (fun b => m (c, b)) (Proc.devRef .tc main_v10) = _
  after_results <;> rfl

theorem entry11 : @Eq (FVec Ideal S64x64 .bf16) (V m c main_v11) <| truncf (F := Ideal) .bf16 (m ((c : Thread nD τ).loc main_arg6)) bitsLt_bf16_f32 := by
  show StableHlo.after hostOps0 (fun b => m (c, b)) (Proc.devRef .tc main_v11) = _
  after_results <;> rfl

theorem entry12 : @Eq (FVec Ideal S3x64 .bf16) (V m c main_v12) <| truncf (F := Ideal) .bf16 (m ((c : Thread nD τ).loc main_arg7)) bitsLt_bf16_f32 := by
  show StableHlo.after hostOps0 (fun b => m (c, b)) (Proc.devRef .tc main_v12) = _
  after_results <;> rfl

/-! ## The same as matrices and columns -/

theorem mat5 : mat (a := 64) (b := 3) (V m c main_v5) = mat (m ((c : Thread nD τ).loc main_arg1)) := by rw [entry5]; rfl
theorem mat6 : mat (a := 64) (b := 64) (V m c main_v6) = mat (m ((c : Thread nD τ).loc main_arg2)) := by rw [entry6]; rfl
theorem mat10 : mat (a := 64) (b := 64) (V m c main_v10) = mat (m ((c : Thread nD τ).loc main_arg5)) := by rw [entry10]; rfl
theorem mat11 : mat (a := 64) (b := 64) (V m c main_v11) = mat (m ((c : Thread nD τ).loc main_arg6)) := by rw [entry11]; rfl
theorem mat12 : mat (a := 3) (b := 64) (V m c main_v12) = mat (m ((c : Thread nD τ).loc main_arg7)) := by rw [entry12]; rfl

/-- The staged first three columns of the first colour layer's matrix. -/
theorem mat8 : mat (a := 64) (b := 3) (V m c main_v8) = viewColumns (mat (m ((c : Thread nD τ).loc main_arg4))) := by
  rw [entry8]
  funext i k
  show extractStridedSlice S64x3 ![0, 0] (m ((c : Thread nD τ).loc main_arg4)) slices_S64x18_S64x3_0_0 (ix2 i k) = _
  exact extractStridedSlice_apply ![0, 0] _ _ (ix2 i k) (ix2 i (⟨k.val, by have := k.isLt; omega⟩ : Fin 18)) (fun a => match a with
    | ⟨0, _⟩ => by show i.val = 0 + i.val; omega
    | ⟨1, _⟩ => by show k.val = 0 + k.val; omega)

/-- The staged first row of the third layer's matrix. -/
theorem mat9 : mat (a := 1) (b := 64) (V m c main_v9) = densityRow (mat (m ((c : Thread nD τ).loc main_arg3))) := by
  rw [entry9]
  funext z k
  show extractStridedSlice S1x64 ![0, 0] (m ((c : Thread nD τ).loc main_arg3)) slices_S16x64_S1x64_0_0 (ix2 z k) = _
  exact extractStridedSlice_apply ![0, 0] _ _ (ix2 z k) (ix2 (0 : Fin 16) k) (fun a => match a with
    | ⟨0, _⟩ => by show 0 = 0 + z.val; have := z.isLt; omega
    | ⟨1, _⟩ => by show k.val = 0 + k.val; omega)

/-- The staged fused matrix. -/
theorem mat7 : mat (a := 64) (b := 64) (V m c main_v7) = fused (mat (m ((c : Thread nD τ).loc main_arg4))) (mat (m ((c : Thread nD τ).loc main_arg3))) := by
  rw [entry7]
  funext i k
  refine (PlainDot.hostDot_apply (φ₁ := .f32) (φ₂ := .f32) dot_S64x15_S15x64_S64x64_1_0_0_1_n_n rfl none _ _ i k).trans ?_
  refine Finset.sum_congr rfl fun j _ => ?_
  refine congrArg₂ (· * ·) ?_ ?_
  · exact extractStridedSlice_apply ![0, 3] _ _ (ix2 i j) (ix2 i (⟨3 + j.val, by have := j.isLt; omega⟩ : Fin 18)) (fun a => match a with
      | ⟨0, _⟩ => by show i.val = 0 + i.val; omega
      | ⟨1, _⟩ => by show 3 + j.val = 3 + j.val; omega)
  · exact extractStridedSlice_apply ![1, 0] _ _ (ix2 j k) (ix2 (⟨1 + j.val, by have := j.isLt; omega⟩ : Fin 16) k) (fun a => match a with
      | ⟨0, _⟩ => by show 1 + j.val = 1 + j.val; omega
      | ⟨1, _⟩ => by show k.val = 0 + k.val; omega)

/-- Column `n` of the staged transposed input holds input row `n`'s point coordinates … -/
theorem colPts13 (n : Fin 1048576) : colPts (N := 1048576) (V m c main_v13) n = rowPts (m ((c : Thread nD τ).loc main_arg0)) n := by
  rw [entry13]
  funext k
  exact transpose_apply [1, 0] _ _ (ix2 (⟨k.val, by have := k.isLt; omega⟩ : Fin 6) n) (ix2 n (⟨k.val, by have := k.isLt; omega⟩ : Fin 6)) (fun b => match b with
    | ⟨0, _⟩ => rfl
    | ⟨1, _⟩ => rfl)

/-- … and view coordinates. -/
theorem colViews13 (n : Fin 1048576) : colViews (N := 1048576) (V m c main_v13) n = rowViews (m ((c : Thread nD τ).loc main_arg0)) n := by
  rw [entry13]
  funext k
  exact transpose_apply [1, 0] _ _ (ix2 (⟨3 + k.val, by have := k.isLt; omega⟩ : Fin 6) n) (ix2 n (⟨3 + k.val, by have := k.isLt; omega⟩ : Fin 6)) (fun b => match b with
    | ⟨0, _⟩ => rfl
    | ⟨1, _⟩ => rfl)

end Cert.KernelValue

end
-- ==== Proof.KernelArray.lean ====
/-
  The kernel's output array after the run.

  The grid has 128 points; point `t` stages columns `8192 t` to `8192 t + 8191` of the transposed input and of the
  transposed result, and the whole of each weight matrix. So what point `t` writes back is block `t` of ONE array:
  the transposed result, whose entry `(p, n)` is entry `p` of the kernel's result row (Mlp.lean) on the sample in
  column `n` of the transposed input. The 128 blocks cover the array, so that is what it holds after the run.
-/
import proofs.«181460_j6957847019903_2_alg».proof.Proof.Entry

noncomputable section

open scoped BigOperators

namespace Cert.KernelValue

open Cert.KernelIdeal Cert.KernelIdeal.Gen Idealize.ShloMosaic Idealize.ShloMosaic.TcCoe
  Idealize.ShloMosaic.ValueIdx Idealize.SL.Sem Cert.Rows Cert.Mlp
open Idealize.ShloMosaic.Pipeline (Dat)

variable (m : (ℓ : Loc nD τ sig) → Buf (Elt Ideal) ℓ) (c : Dev nD)

/-- The kernel's result row on the sample in column `n` of a 6 x 1048576 array of samples, from the eight staged
    matrices. -/
def outRow (xT : (⟨2, ![6, 1048576]⟩ : Shape).Idx → EReal) (w1 : (⟨2, ![64, 3]⟩ : Shape).Idx → EReal)
    (w2 w3 : (⟨2, ![64, 64]⟩ : Shape).Idx → EReal) (w4 : (⟨2, ![64, 3]⟩ : Shape).Idx → EReal)
    (w5 : (⟨2, ![1, 64]⟩ : Shape).Idx → EReal) (w6 w7 : (⟨2, ![64, 64]⟩ : Shape).Idx → EReal)
    (w8 : (⟨2, ![3, 64]⟩ : Shape).Idx → EReal) (n : Fin 1048576) : Fin 4 → EReal :=
  Mlp.kernel (mat w1) (mat w2) (mat w3) (mat w4) (mat w5) (mat w6) (mat w7) (mat w8) (colPts xT n) (colViews xT n)

/-- The transposed result: entry `(p, n)` is entry `p` of the result row on column `n`. -/
def outT (xT : (⟨2, ![6, 1048576]⟩ : Shape).Idx → EReal) (w1 : (⟨2, ![64, 3]⟩ : Shape).Idx → EReal)
    (w2 w3 : (⟨2, ![64, 64]⟩ : Shape).Idx → EReal) (w4 : (⟨2, ![64, 3]⟩ : Shape).Idx → EReal)
    (w5 : (⟨2, ![1, 64]⟩ : Shape).Idx → EReal) (w6 w7 : (⟨2, ![64, 64]⟩ : Shape).Idx → EReal)
    (w8 : (⟨2, ![3, 64]⟩ : Shape).Idx → EReal) : (⟨2, ![4, 1048576]⟩ : Shape).Idx → EReal := fun i =>
  outRow xT w1 w2 w3 w4 w5 w6 w7 w8 (i 1) (i 0)

/-! ## The index maps over the grid -/

/-- The input's and the output's blocks move along the columns with the point; every weight block stays at the origin. -/
theorem idx_facts : ∀ t : Fin cfg0.N,
    win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 128 := lt_of_lt_of_eq t.isLt N_0

/-! ## Each input block read off its array -/

/-- Point `t`'s block of the transposed input is its columns from `8192 t` on. -/
theorem blk0 (t : Fin cfg0.N) (j : Fin 6) (q : Fin 8192) :
    iblk m c 0 t (ix2 j q) = V m c main_v13 (ix2 j (⟨t.val * 8192 + q.val, by have := point_lt t; have := q.isLt; omega⟩ : Fin 1048576)) := by
  show V m c main_v13 (((cfg0.win 0).blk t).view.emb (ix2 j q)) = _
  refine congrArg (V m c main_v13) (funext fun a => Fin.ext ?_)
  obtain ⟨e0, e1, -⟩ := idx_facts t
  match a with
  | ⟨0, _⟩ => show win0_0.index t (0 : Fin 2) * 6 + 1 * j.val = j.val; omega
  | ⟨1, _⟩ => show win0_0.index t (1 : Fin 2) * 8192 + 1 * q.val = t.val * 8192 + q.val; omega

/-- Weight window 1's block is the whole of its array. -/
theorem blk1 (t : Fin cfg0.N) : mat (a := 64) (b := 3) (iblk m c 1 t) = mat (a := 64) (b := 3) (V m c main_v5) := by
  funext i k
  show V m c main_v5 (((cfg0.win 1).blk t).view.emb (ix2 i k)) = V m c main_v5 (ix2 i k)
  refine congrArg (V m c main_v5) (funext fun a => Fin.ext ?_)
  obtain ⟨_, _, _, _, e0, e1, -⟩ := idx_facts t
  match a with
  | ⟨0, _⟩ => show win0_1.index t (0 : Fin 2) * 64 + 1 * i.val = i.val; omega
  | ⟨1, _⟩ => show win0_1.index t (1 : Fin 2) * 3 + 1 * k.val = k.val; omega

/-- Weight window 2's block is the whole of its array. -/
theorem blk2 (t : Fin cfg0.N) : mat (a := 64) (b := 64) (iblk m c 2 t) = mat (a := 64) (b := 64) (V m c main_v6) := by
  funext i k
  show V m c main_v6 (((cfg0.win 2).blk t).view.emb (ix2 i k)) = V m c main_v6 (ix2 i k)
  refine congrArg (V m c main_v6) (funext fun a => Fin.ext ?_)
  obtain ⟨_, _, _, _, _, _, e0, e1, -⟩ := idx_facts t
  match a with
  | ⟨0, _⟩ => show win0_2.index t (0 : Fin 2) * 64 + 1 * i.val = i.val; omega
  | ⟨1, _⟩ => show win0_2.index t (1 : Fin 2) * 64 + 1 * k.val = k.val; omega

/-- Weight window 3's block is the whole of its array. -/
theorem blk3 (t : Fin cfg0.N) : mat (a := 64) (b := 64) (iblk m c 3 t) = mat (a := 64) (b := 64) (V m c main_v7) := by
  funext i k
  show V m c main_v7 (((cfg0.win 3).blk t).view.emb (ix2 i k)) = V m c main_v7 (ix2 i k)
  refine congrArg (V m c main_v7) (funext fun a => Fin.ext ?_)
  obtain ⟨_, _, _, _, _, _, _, _, e0, e1, -⟩ := idx_facts t
  match a with
  | ⟨0, _⟩ => show win0_3.index t (0 : Fin 2) * 64 + 1 * i.val = i.val; omega
  | ⟨1, _⟩ => show win0_3.index t (1 : Fin 2) * 64 + 1 * k.val = k.val; omega

/-- Weight window 4's block is the whole of its array. -/
theorem blk4 (t : Fin cfg0.N) : mat (a := 64) (b := 3) (iblk m c 4 t) = mat (a := 64) (b := 3) (V m c main_v8) := by
  funext i k
  show V m c main_v8 (((cfg0.win 4).blk t).view.emb (ix2 i k)) = V m c main_v8 (ix2 i k)
  refine congrArg (V m c main_v8) (funext fun a => Fin.ext ?_)
  obtain ⟨_, _, _, _, _, _, _, _, _, _, e0, e1, -⟩ := idx_facts t
  match a with
  | ⟨0, _⟩ => show win0_4.index t (0 : Fin 2) * 64 + 1 * i.val = i.val; omega
  | ⟨1, _⟩ => show win0_4.index t (1 : Fin 2) * 3 + 1 * k.val = k.val; omega

/-- Weight window 5's block is the whole of its array. -/
theorem blk5 (t : Fin cfg0.N) : mat (a := 1) (b := 64) (iblk m c 5 t) = mat (a := 1) (b := 64) (V m c main_v9) := by
  funext i k
  show V m c main_v9 (((cfg0.win 5).blk t).view.emb (ix2 i k)) = V m c main_v9 (ix2 i k)
  refine congrArg (V m c main_v9) (funext fun a => Fin.ext ?_)
  obtain ⟨_, _, _, _, _, _, _, _, _, _, _, _, e0, e1, -⟩ := idx_facts t
  match a with
  | ⟨0, _⟩ => show win0_5.index t (0 : Fin 2) * 1 + 1 * i.val = i.val; omega
  | ⟨1, _⟩ => show win0_5.index t (1 : Fin 2) * 64 + 1 * k.val = k.val; omega

/-- Weight window 6's block is the whole of its array. -/
theorem blk6 (t : Fin cfg0.N) : mat (a := 64) (b := 64) (iblk m c 6 t) = mat (a := 64) (b := 64) (V m c main_v10) := by
  funext i k
  show V m c main_v10 (((cfg0.win 6).blk t).view.emb (ix2 i k)) = V m c main_v10 (ix2 i k)
  refine congrArg (V m c main_v10) (funext fun a => Fin.ext ?_)
  obtain ⟨_, _, _, _, _, _, _, _, _, _, _, _, _, _, e0, e1, -⟩ := idx_facts t
  match a with
  | ⟨0, _⟩ => show win0_6.index t (0 : Fin 2) * 64 + 1 * i.val = i.val; omega
  | ⟨1, _⟩ => show win0_6.index t (1 : Fin 2) * 64 + 1 * k.val = k.val; omega

/-- Weight window 7's block is the whole of its array. -/
theorem blk7 (t : Fin cfg0.N) : mat (a := 64) (b := 64) (iblk m c 7 t) = mat (a := 64) (b := 64) (V m c main_v11) := by
  funext i k
  show V m c main_v11 (((cfg0.win 7).blk t).view.emb (ix2 i k)) = V m c main_v11 (ix2 i k)
  refine congrArg (V m c main_v11) (funext fun a => Fin.ext ?_)
  obtain ⟨_, _, _, _, _, _, _, _, _, _, _, _, _, _, _, _, e0, e1, -⟩ := idx_facts t
  match a with
  | ⟨0, _⟩ => show win0_7.index t (0 : Fin 2) * 64 + 1 * i.val = i.val; omega
  | ⟨1, _⟩ => show win0_7.index t (1 : Fin 2) * 64 + 1 * k.val = k.val; omega

/-- Weight window 8's block is the whole of its array. -/
theorem blk8 (t : Fin cfg0.N) : mat (a := 3) (b := 64) (iblk m c 8 t) = mat (a := 3) (b := 64) (V m c main_v12) := by
  funext i k
  show V m c main_v12 (((cfg0.win 8).blk t).view.emb (ix2 i k)) = V m c main_v12 (ix2 i k)
  refine congrArg (V m c main_v12) (funext fun a => Fin.ext ?_)
  obtain ⟨_, _, _, _, _, _, _, _, _, _, _, _, _, _, _, _, _, _, e0, e1⟩ := idx_facts t
  match a with
  | ⟨0, _⟩ => show win0_8.index t (0 : Fin 2) * 3 + 1 * i.val = i.val; omega
  | ⟨1, _⟩ => show win0_8.index t (1 : Fin 2) * 64 + 1 * k.val = k.val; omega

/-! ## What a point writes back -/

/-- WHAT POINT `t` WRITES BACK is block `t` of the transposed result. -/
theorem flushed_eq (t : Fin cfg0.N) :
    (dats m 0 c).flushed 9 t = ((cfg0.win 9).blk t).view.read (Elt Ideal) (outT (V m c main_v13) (V m c main_v5) (V m c main_v6) (V m c main_v7) (V m c main_v8) (V m c main_v9) (V m c main_v10) (V m c main_v11) (V m c main_v12)) := by
  show (cfg0.win 9).cut (grid0.coords t) ((dats m 0 c).after 9 t) = _
  rw [after0_9]
  funext y
  obtain ⟨p, q, rfl⟩ : ∃ (p : Fin 4) (q : Fin 8192), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p q)
    = outT (V m c main_v13) (V m c main_v5) (V m c main_v6) (V m c main_v7) (V m c main_v8) (V m c main_v9) (V m c main_v10) (V m c main_v11) (V m c main_v12) (((cfg0.win 9).blk t).view.emb (ix2 p q))
  refine (out_col (iblk m c 0 t) (iblk m c 1 t) (iblk m c 2 t) (iblk m c 3 t) (iblk m c 4 t) (iblk m c 5 t) (iblk m c 6 t) (iblk m c 7 t) (iblk m c 8 t) p q).trans ?_
  have hemb : ((cfg0.win 9).blk t).view.emb (ix2 p q)
      = ix2 p (⟨t.val * 8192 + q.val, by have := point_lt t; have := q.isLt; omega⟩ : Fin 1048576) := by
    obtain ⟨_, _, e0, e1, -⟩ := idx_facts t
    funext a
    refine Fin.ext ?_
    match a with
    | ⟨0, _⟩ => show win0_9.index t (0 : Fin 2) * 4 + 1 * p.val = p.val; omega
    | ⟨1, _⟩ => show win0_9.index t (1 : Fin 2) * 8192 + 1 * q.val = t.val * 8192 + q.val; omega
  rw [hemb]
  show _ = Mlp.kernel (mat (V m c main_v5)) (mat (V m c main_v6)) (mat (V m c main_v7)) (mat (V m c main_v8)) (mat (V m c main_v9))
    (mat (V m c main_v10)) (mat (V m c main_v11)) (mat (V m c main_v12))
    (colPts (N := 1048576) (V m c main_v13) ⟨t.val * 8192 + q.val, by have := point_lt t; have := q.isLt; omega⟩)
    (colViews (N := 1048576) (V m c main_v13) ⟨t.val * 8192 + q.val, by have := point_lt t; have := q.isLt; omega⟩) p
  have hp : colPts (N := 8192) (iblk m c 0 t) q
      = colPts (N := 1048576) (V m c main_v13) ⟨t.val * 8192 + q.val, by have := point_lt t; have := q.isLt; omega⟩ :=
    funext fun k => blk0 m c t _ q
  have hv : colViews (N := 8192) (iblk m c 0 t) q
      = colViews (N := 1048576) (V m c main_v13) ⟨t.val * 8192 + q.val, by have := point_lt t; have := q.isLt; omega⟩ :=
    funext fun k => blk0 m c t _ q
  rw [hp, hv, blk1 m c t, blk2 m c t, blk3 m c t, blk4 m c t, blk5 m c t, blk6 m c t, blk7 m c t, blk8 m c t]

/-! ## The blocks cover the array -/

/-- An entry of the array is in point `t`'s block iff each coordinate is in the block's range on its axis. -/
theorem mem_blk9 (t : Fin cfg0.N) (i : S4x1048576.Idx) :
    i ∈ ((cfg0.win 9).blk t).view.set ↔ ∀ a : Fin 2, win0_9.index t a * S4x8192.size a ≤ (i a).val
      ∧ (i a).val < win0_9.index t a * S4x8192.size a + S4x8192.size a := by
  show i ∈ ((View.whole main_v14).slice (win0_9.rect t)).set ↔ _
  rw [View.set_slice_whole, Rect.mem_set_unit]
  exact Iff.rfl

/-- The point whose block holds column `n`: `n / 8192`. -/
def pointOf (i : S4x1048576.Idx) : Fin cfg0.N :=
  ⟨(i 1).val / 8192, by have h1 : (i 1).val < 1048576 := (i 1).isLt; show (i 1).val / 8192 < 128; omega⟩

/-- Column `n` is in the block of point `n / 8192`. -/
theorem cover (i : S4x1048576.Idx) :
    ∃ t : Fin cfg0.N, (cfg0.win 9).flush t = true ∧ i ∈ ((cfg0.win 9).blk t).view.set := by
  have h0 : (i 0).val < 4 := (i 0).isLt
  have h1 : (i 1).val < 1048576 := (i 1).isLt
  refine ⟨pointOf i, flush0_9 _, ?_⟩
  rw [mem_blk9]
  obtain ⟨_, _, e0, e1, -⟩ := idx_facts (pointOf i)
  have ht : (pointOf i).val = (i 1).val / 8192 := rfl
  intro a
  match a with
  | ⟨0, _⟩ =>
    show win0_9.index (pointOf i) (0 : Fin 2) * 4 ≤ (i 0).val
      ∧ (i 0).val < win0_9.index (pointOf i) (0 : Fin 2) * 4 + 4
    omega
  | ⟨1, _⟩ =>
    show win0_9.index (pointOf i) (1 : Fin 2) * 8192 ≤ (i 1).val
      ∧ (i 1).val < win0_9.index (pointOf i) (1 : Fin 2) * 8192 + 8192
    omega

/-- THE ARRAY AFTER THE RUN is the transposed result of the staged arrays. -/
theorem final9 : (dats m 0 c).arrAt 9 cfg0.N = outT (V m c main_v13) (V m c main_v5) (V m c main_v6) (V m c main_v7) (V m c main_v8) (V m c main_v9) (V m c main_v10) (V m c main_v11) (V m c main_v12) :=
  (dats m 0 c).arrAt_eq_of_cover 9 (outT (V m c main_v13) (V m c main_v5) (V m c main_v6) (V m c main_v7) (V m c main_v8) (V m c main_v9) (V m c main_v10) (V m c main_v11) (V m c main_v12)) (fun t _ => flushed_eq m c t) cover

end Cert.KernelValue

end
-- ==== Proof.KernelResult.lean ====
/-
  The kernel program's result.

  After the region the host transposes the 4 x 1048576 output array back; so the program's result at `(n, p)` is the
  output array at `(p, n)`: entry `p` of the kernel's result row on input row `n`, from the staged matrices
  (KernelArray.lean). Read through the host operations before the region (Entry.lean) the staged matrices are the
  arguments' matrices, the view columns, the density's row and the fused matrix; and on real entries the kernel's
  result row is the reference's (Mlp.lean). So the program's result is the result array of Rows.lean.
-/
import proofs.«181460_j6957847019903_2_alg».proof.Proof.KernelArray

noncomputable section

open scoped BigOperators

namespace Cert.KernelValue

open Cert.KernelIdeal Cert.KernelIdeal.Gen Idealize.ShloMosaic Idealize.ShloMosaic.TcCoe
  Idealize.ShloMosaic.ValueIdx Idealize.SL.Sem Cert.Rows Cert.Mlp Cert.FiniteReals
open Idealize.ShloMosaic.Pipeline (Dat)

variable (m : (ℓ : Loc nD τ sig) → Buf (Elt Ideal) ℓ) (c : Dev nD)

/-- The host operation after the region leaves the transpose of the output array in the result buffer. -/
theorem tail15 : @Eq (FVec Ideal S1048576x4 .f32) (Pipeline.afterTail₀ cfgs (dats m) 0 (V0 m) [hostOps1] c main_v15)
    (transpose S1048576x4 [1, 0] ((dats m 0 c).arrAt 9 cfg0.N) transposes_S4x1048576_S1048576x4_1_0) := by
  unfold Pipeline.afterTail₀
  show StableHlo.after hostOps1 _ (Proc.devRef .tc main_v15) = _
  after_results
  exact congrArg (fun z : FVec Ideal S4x1048576 .f32 => transpose S1048576x4 [1, 0] z transposes_S4x1048576_S1048576x4_1_0)
    (Pipeline.withArrays_arr spec0 launch0.win.arr_inj c (V0 m c) (fun w => (dats m 0 c).arrAt w cfg0.N) 9)

/-- THE KERNEL PROGRAM'S RESULT, when the input and the first four matrices hold real numbers, is the result array. -/
theorem kernel_result
    (h0 : ∀ i, IsReal ((m ((c : Thread nD τ).loc main_arg0)) i)) (h1 : ∀ i, IsReal ((m ((c : Thread nD τ).loc main_arg1)) i)) (h2 : ∀ i, IsReal ((m ((c : Thread nD τ).loc main_arg2)) i))
    (h3 : ∀ i, IsReal ((m ((c : Thread nD τ).loc main_arg3)) i)) (h4 : ∀ i, IsReal ((m ((c : Thread nD τ).loc main_arg4)) i)) :
    @Eq (FVec Ideal S1048576x4 .f32) (Pipeline.afterTail₀ cfgs (dats m) 0 (V0 m) [hostOps1] c main_v15)
      (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [tail15, final9]
  funext i
  obtain ⟨n, p, rfl⟩ : ∃ (n : Fin 1048576) (p : Fin 4), i = ix2 n p := ⟨i 0, i 1, eq_ix2 i⟩
  refine (transpose_apply [1, 0] _ _ (ix2 n p) (ix2 p n) (fun b => match b with
    | ⟨0, _⟩ => rfl
    | ⟨1, _⟩ => rfl)).trans ?_
  show Mlp.kernel (mat (V m c main_v5)) (mat (V m c main_v6)) (mat (V m c main_v7)) (mat (V m c main_v8)) (mat (V m c main_v9))
      (mat (V m c main_v10)) (mat (V m c main_v11)) (mat (V m c main_v12))
      (colPts (N := 1048576) (V m c main_v13) n) (colViews (N := 1048576) (V m c main_v13) n) p
    = Mlp.reference (mat (m ((c : Thread nD τ).loc main_arg1))) (mat (m ((c : Thread nD τ).loc main_arg2))) (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7)))
      (rowPts (m ((c : Thread nD τ).loc main_arg0)) n) (rowViews (m ((c : Thread nD τ).loc main_arg0)) n) p
  rw [mat5, mat6, mat7, mat8, mat9, mat10, mat11, mat12, colPts13, colViews13]
  exact congrFun (Mlp.kernel_eq_reference (mat (m ((c : Thread nD τ).loc main_arg1))) (mat (m ((c : Thread nD τ).loc main_arg2))) (mat (m ((c : Thread nD τ).loc main_arg3))) (mat (m ((c : Thread nD τ).loc main_arg4))) (mat (m ((c : Thread nD τ).loc main_arg5))) (mat (m ((c : Thread nD τ).loc main_arg6)))
    (mat (m ((c : Thread nD τ).loc main_arg7))) (rowPts (m ((c : Thread nD τ).loc main_arg0)) n) (rowViews (m ((c : Thread nD τ).loc main_arg0)) n) (fun i k => h1 _) (fun i k => h2 _) (fun i k => h3 _) (fun i k => h4 _)
    (fun k => h0 _)) p

/-- THE RUN, READ: every weakly fair execution of the kernel program from `m` terminates with the result buffer at the
    result array and the arguments unchanged. -/
theorem run (ρ : Dev nD → PrngReg)
    (hreal : ∀ c : Dev nD, (∀ i, IsReal ((m ((c : Thread nD τ).loc main_arg0)) i)) ∧ (∀ i, IsReal ((m ((c : Thread nD τ).loc main_arg1)) i)) ∧ (∀ i, IsReal ((m ((c : Thread nD τ).loc main_arg2)) i))
      ∧ (∀ i, IsReal ((m ((c : Thread nD τ).loc main_arg3)) i)) ∧ (∀ i, IsReal ((m ((c : Thread nD τ).loc main_arg4)) i))) :
    θ_run defs (onTc (τ := τ) (main (F := Ideal))) ⟨m, fun _ => 0, ρ⟩ (fun r => ∀ c : Dev nD,
      r.2.mem ((c : Thread nD τ).loc main_v15) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨((h c).2 main_v15 (Pipeline.mem_restRefs_of main_v15 (by decide) (by decide))).trans
        (kernel_result m c (hreal c).1 (hreal c).2.1 (hreal c).2.2.1 (hreal c).2.2.2.1 (hreal c).2.2.2.2),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelValue

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«181460_j6957847019903_2_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.Finite.lean ====
/-
  The precondition, read back: every entry of every argument array is a real number.

  The printed precondition is the conjunction, by `and` on one-bit words, of one "all entries finite" test per
  argument array (LibFiniteInputs.lean reads one test).
-/
import proofs.«181460_j6957847019903_2_alg».proof.Pre_finite_inputs
import proofs.«181460_j6957847019903_2_alg».proof.Proof.LibFiniteInputs

noncomputable section

namespace Cert.Finite

open Idealize.ShloMosaic Idealize.ShloMosaic.ValueIdx Cert.FiniteReals Cert.FiniteInputs Cert.Pre_finite_inputs

variable [Cert.Pre_finite_inputs.Facts]

/-- THE PRECONDITION says each of the eight argument arrays holds real numbers. -/
theorem reals_of_pre (x0 : FVec Ideal Cert.Pre_finite_inputs.S1048576x6 .f32) (x1 : FVec Ideal Cert.Pre_finite_inputs.S64x3 .f32) (x2 : FVec Ideal Cert.Pre_finite_inputs.S64x64 .f32) (x3 : FVec Ideal Cert.Pre_finite_inputs.S16x64 .f32)
    (x4 : FVec Ideal Cert.Pre_finite_inputs.S64x18 .f32) (x5 x6 : FVec Ideal Cert.Pre_finite_inputs.S64x64 .f32) (x7 : FVec Ideal Cert.Pre_finite_inputs.S3x64 .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) ∧ (∀ i, IsReal (x7 i)) := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all_finite x0 _ _ _ e0, isReal_of_all_finite x1 _ _ _ e1, isReal_of_all_finite x2 _ _ _ e2,
    isReal_of_all_finite x3 _ _ _ e3, isReal_of_all_finite x4 _ _ _ e4, isReal_of_all_finite x5 _ _ _ e5,
    isReal_of_all_finite x6 _ _ _ e6, isReal_of_all_finite x7 _ _ _ e7⟩

end Cert.Finite

end
-- ==== Proof.lean ====
/-
  The certificate of a fused NeRF-style network: a Pallas kernel over transposed samples against a plain jnp reference.

  Both programs map each of the 1048576 input rows (three point coordinates, three view coordinates) through the same
  network of dense layers and rectifiers to three colours and a density (Proof/Mlp.lean). The reference works row by
  row with transposed weight matrices and concatenates the view coordinates with fifteen features before the first
  colour layer. The kernel works on 128 blocks of 8192 columns of the transposed input, with every weight matrix
  rounded to bf16 (the identity at the ideal values), and replaces the fifteen features by one fused 64 x 64 matrix
  that the host multiplies out before the launch; the host transposes the kernel's 4 x 1048576 output back.

  The road: the reference's result read entry by entry is the result array of Proof/Rows.lean (Proof/RefRead.lean, over
  the generated run and its read-at-an-index lemmas); the kernel's stored block read entry by entry is the kernel's
  result row on the block's column (Proof/Payload.lean); the blocks tile the output array (Proof/KernelArray.lean); the
  host operations around the region are read in Proof/Entry.lean and Proof/KernelResult.lean; the two result rows
  agree by distributivity and an exchange of sums, which needs real entries (Proof/Mlp.lean), and the precondition
  provides them (Proof/Finite.lean). The frames of the two kernel programs are the generated ones, the reference's
  frame is its generated run with the result dropped, and the idealization rewrote nothing.
-/
import proofs.«181460_j6957847019903_2_alg».proof.Defs
import proofs.«181460_j6957847019903_2_alg».proof.Proof.Gen.Kernel
import proofs.«181460_j6957847019903_2_alg».proof.Proof.Gen.Kernel.Skeleton
import proofs.«181460_j6957847019903_2_alg».proof.Proof.Gen.Kernel.Launch
import proofs.«181460_j6957847019903_2_alg».proof.Proof.Gen.Kernel.Points
import proofs.«181460_j6957847019903_2_alg».proof.Proof.Gen.Kernel.Frame
import proofs.«181460_j6957847019903_2_alg».proof.Proof.Gen.KernelIdeal
import proofs.«181460_j6957847019903_2_alg».proof.Proof.Gen.KernelIdeal.Skeleton
import proofs.«181460_j6957847019903_2_alg».proof.Proof.Gen.KernelIdeal.Launch
import proofs.«181460_j6957847019903_2_alg».proof.Proof.Gen.KernelIdeal.Points
import proofs.«181460_j6957847019903_2_alg».proof.Proof.Gen.KernelIdeal.Frame
import proofs.«181460_j6957847019903_2_alg».proof.Proof.Gen.ReferenceIdeal
import proofs.«181460_j6957847019903_2_alg».proof.Proof.Gen.ReferenceIdeal.Run
import proofs.«181460_j6957847019903_2_alg».proof.Proof.Gen.ReferenceIdeal.Read
import proofs.«181460_j6957847019903_2_alg».proof.Proof.Gen.Pre_finite_inputs
import proofs.«181460_j6957847019903_2_alg».proof.Proof.RefRead
import proofs.«181460_j6957847019903_2_alg».proof.Proof.KernelResult
import proofs.«181460_j6957847019903_2_alg».proof.Proof.Finite
import Idealize.ShloMosaic.Adequacy
import Idealize.ShloMosaic.Init

noncomputable section

namespace Cert.Proof

open Idealize.ShloMosaic Idealize.SL.Sem

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array of the arguments: the kernel program by its run read through the
    blocks and the host operations, under the precondition's real entries; the reference by its run read entry by entry;
    the two memories agree on the arguments. -/
theorem algebraic : Cert.algebraic_KernelIdeal_ReferenceIdeal := by
  intro m ρ m' ρ' hpre hagree
  have hreal : ∀ c : Dev Cert.KernelIdeal.nD, (∀ i, Cert.FiniteReals.IsReal ((m ((c.tc : Thread Cert.KernelIdeal.nD Cert.KernelIdeal.τ).loc Cert.KernelIdeal.main_arg0)) i))
      ∧ (∀ i, Cert.FiniteReals.IsReal ((m ((c.tc : Thread Cert.KernelIdeal.nD Cert.KernelIdeal.τ).loc Cert.KernelIdeal.main_arg1)) i)) ∧ (∀ i, Cert.FiniteReals.IsReal ((m ((c.tc : Thread Cert.KernelIdeal.nD Cert.KernelIdeal.τ).loc Cert.KernelIdeal.main_arg2)) i))
      ∧ (∀ i, Cert.FiniteReals.IsReal ((m ((c.tc : Thread Cert.KernelIdeal.nD Cert.KernelIdeal.τ).loc Cert.KernelIdeal.main_arg3)) i)) ∧ (∀ i, Cert.FiniteReals.IsReal ((m ((c.tc : Thread Cert.KernelIdeal.nD Cert.KernelIdeal.τ).loc Cert.KernelIdeal.main_arg4)) i)) := fun c => by
    obtain ⟨r0, r1, r2, r3, r4, -⟩ := Cert.Finite.reals_of_pre _ _ _ _ _ _ _ _ (hpre c)
    exact ⟨r0, r1, r2, r3, r4⟩
  refine ⟨fun c => Cert.Rows.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelValue.run m ρ hreal, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v26_eq _ _ _ _ _ _ _ _).trans (Cert.RefValue.reference_eq_result _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
